-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S100000x32 : Shape := ⟨2, ![100000, 32]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S2048x32 .f32) (main_arg1 : FVec F S100000x32 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S2048x32 : Shape := ⟨2, ![2048, 32]⟩
abbrev S100000x32 : Shape := ⟨2, ![100000, 32]⟩
abbrev S1024x100000 : Shape := ⟨2, ![1024, 100000]⟩
abbrev S1024x2048 : Shape := ⟨2, ![1024, 2048]⟩
abbrev S1024x32 : Shape := ⟨2, ![1024, 32]⟩
abbrev S1024 : Shape := ⟨1, ![1024]⟩
abbrev S1024x1 : Shape := ⟨2, ![1024, 1]⟩
abbrev S1024x16 : Shape := ⟨2, ![1024, 16]⟩
abbrev S2048 : Shape := ⟨1, ![2048]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x32, .f32⟩
  | .hbm, ⟨1, _⟩ => ⟨S100000x32, .f32⟩
  | .hbm, ⟨2, _⟩ => ⟨S1024x100000, .f32⟩
  | .local _ .vmem, ⟨0, _⟩ => ⟨S2048x32, .f32⟩
  | .local _ .vmem, ⟨1, _⟩ => ⟨S2048x32, .f32⟩
  | .local _ .vmem, ⟨2, _⟩ => ⟨S2048x32, .f32⟩
  | .local _ .vmem, ⟨3, _⟩ => ⟨S1024x2048, .f32⟩
  | .local _ .vmem, ⟨4, _⟩ => ⟨S1024x2048, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x32_S2048x32_0_0 : ∀ a, (![0, 0] : Fin 2 → Nat) a + S2048x32.size a ≤ S2048x32.size a
  h_S2048x32 : 0 < S2048x32.numel
  slices_S2048x32_o0_0_S1024x32 : S2048x32.Slices ![0, 0] S1024x32
  reduces_S1024x32_S1024 : S1024x32.Reduces [1] S1024
  shapeCasts_S1024_S1024x1 : S1024.ShapeCasts S1024x1
  broadcasts_S1024x1_S1024x32 : S1024x1.Broadcasts S1024x32
  slices_S2048x32_o1024_0_S1024x32 : S2048x32.Slices ![1024, 0] S1024x32
  slices_S1024x32_o0_0_S1024x16 : S1024x32.Slices ![0, 0] S1024x16
  slices_S1024x32_o0_16_S1024x16 : S1024x32.Slices ![0, 16] S1024x16
  concatenates_S1024x16_S1024x16_S1024x32_d1 : Shape.Concatenates [S1024x16, S1024x16] S1024x32 1
  reduces_S2048x32_S2048 : S2048x32.Reduces [1] S2048
  shapeCasts_S2048_S2048x1 : S2048.ShapeCasts S2048x1
  broadcasts_S2048x1_S2048x32 : S2048x1.Broadcasts S2048x32
  inb_S1024x2048_S1024x2048_0_0 : ∀ a, (![0, 0] : Fin 2 → Nat) a + S1024x2048.size a ≤ S1024x2048.size a
  h_S1024x2048 : 0 < S1024x2048.numel
  dot_S1024x32_S2048x32_S1024x2048_1_1_0_0_n_n_wf : DotDims.WF S1024x32 S2048x32 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S2048x32.size a
  hwx0_0 : ∀ i : grid0.Coords, EltTy.bits .f32 = 32 ∨ (Rect.block (s := S2048x32) S2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x32.size a < S100000x32.size a
  hwx0_1 : ∀ i : grid0.Coords, EltTy.bits .f32 = 32 ∨ (Rect.unit (s := S100000x32) (fun a => cc0_transform_1 i a * S2048x32.size a) (fun a => (Pipeline.Clip.of (cc0_transform_1 i a) (S2048x32.size a) (S100000x32.size a)).extent (S2048x32.size a)) fun a => Pipeline.Clip.inb (Pipeline.Clip.ok_of (hstart0_1 i a))).WholeWords (EltTy.packing .f32)
  hwxs0_1 : ∀ i : grid0.Coords, EltTy.bits .f32 = 32 ∨ (Rect.unit (s := S2048x32) (fun _ => 0) (fun a => (Pipeline.Clip.of (cc0_transform_1 i a) (S2048x32.size a) (S100000x32.size a)).extent (S2048x32.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024x2048.size a < S1024x100000.size a
  hwx0_2 : ∀ i : grid0.Coords, EltTy.bits .f32 = 32 ∨ (Rect.unit (s := S1024x100000) (fun a => cc0_transform_2 i a * S1024x2048.size a) (fun a => (Pipeline.Clip.of (cc0_transform_2 i a) (S1024x2048.size a) (S1024x100000.size a)).extent (S1024x2048.size a)) fun a => Pipeline.Clip.inb (Pipeline.Clip.ok_of (hstart0_2 i a))).WholeWords (EltTy.packing .f32)
  hwxs0_2 : ∀ i : grid0.Coords, EltTy.bits .f32 = 32 ∨ (Rect.unit (s := S1024x2048) (fun _ => 0) (fun a => (Pipeline.Clip.of (cc0_transform_2 i a) (S1024x2048.size a) (S1024x100000.size a)).extent (S1024x2048.size a)) fun a => (Nat.zero_add _).trans_le (Pipeline.Clip.extent_le (Pipeline.Clip.ok_of (hstart0_2 i a)))).WholeWords (EltTy.packing .f32)

variable [Facts₀]

def dot_S1024x32_S2048x32_S1024x2048_1_1_0_0_n_n : DotDims S1024x32 S2048x32 S1024x2048 where
  lhsContracting := [1]
  rhsContracting := [1]
  lhsNonContracting := [0]
  rhsNonContracting := [0]
  lhsBatch := []
  rhsBatch := []
  wf := dot_S1024x32_S2048x32_S1024x2048_1_1_0_0_n_n_wf

abbrev win0_0 : Pipeline.Window sig grid0 :=
  Pipeline.Window.ofSpec (Memref.whole main_arg0) S2048x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x32.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1024x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x32 : Shape := ⟨2, ![2048, 32]⟩
abbrev S100000x32 : Shape := ⟨2, ![100000, 32]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1024x16 : Shape := ⟨2, ![1024, 16]⟩
abbrev S100000x16 : Shape := ⟨2, ![100000, 16]⟩
abbrev S16x100000 : Shape := ⟨2, ![16, 100000]⟩
abbrev S1024x100000 : Shape := ⟨2, ![1024, 100000]⟩

abbrev nBuf : Space → Nat
  | .hbm => 63
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S100000x32, .f32⟩
  | .hbm, ⟨2, _⟩ => ⟨S1024x32, .f32⟩
  | .hbm, ⟨3, _⟩ => ⟨S1024x32, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x32, .f32⟩
  | .hbm, ⟨12, _⟩ => ⟨S1024x32, .f32⟩
  | .hbm, ⟨13, _⟩ => ⟨S1024x32, .f32⟩
  | .hbm, ⟨14, _⟩ => ⟨S1024x32, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x32, .f32⟩
  | .hbm, ⟨23, _⟩ => ⟨S1024x32, .f32⟩
  | .hbm, ⟨24, _⟩ => ⟨S100000x32, .f32⟩
  | .hbm, ⟨25, _⟩ => ⟨S_, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S100000x32, .f32⟩
  | .hbm, ⟨33, _⟩ => ⟨S100000x32, .f32⟩
  | .hbm, ⟨34, _⟩ => ⟨S1024x16, .f32⟩
  | .hbm, ⟨35, _⟩ => ⟨S1024x16, .f32⟩
  | .hbm, ⟨36, _⟩ => ⟨S1024x16, .f32⟩
  | .hbm, ⟨37, _⟩ => ⟨S1024x16, .f32⟩
  | .hbm, ⟨38, _⟩ => ⟨S100000x16, .f32⟩
  | .hbm, ⟨39, _⟩ => ⟨S100000x16, .f32⟩
  | .hbm, ⟨40, _⟩ => ⟨S1024x16, .f32⟩
  | .hbm, ⟨41, _⟩ => ⟨S16x100000, .f32⟩
  | .hbm, ⟨42, _⟩ => ⟨S1024x100000, .f32⟩
  | .hbm, ⟨43, _⟩ => ⟨S1024x16, .f32⟩
  | .hbm, ⟨44, _⟩ => ⟨S16x100000, .f32⟩
  | .hbm, ⟨45, _⟩ => ⟨S1024x100000, .f32⟩
  | .hbm, ⟨46, _⟩ => ⟨S1024x100000, .f32⟩
  | .hbm, ⟨47, _⟩ => ⟨S1024x16, .f32⟩
  | .hbm, ⟨48, _⟩ => ⟨S16x100000, .f32⟩
  | .hbm, ⟨49, _⟩ => ⟨S1024x100000, .f32⟩
  | .hbm, ⟨50, _⟩ => ⟨S1024x100000, .f32⟩
  | .hbm, ⟨51, _⟩ => ⟨S1024x16, .f32⟩
  | .hbm, ⟨52, _⟩ => ⟨S16x100000, .f32⟩
  | .hbm, ⟨53, _⟩ => ⟨S1024x100000, .f32⟩
  | .hbm, ⟨54, _⟩ => ⟨S1024x100000, .f32⟩
  | .hbm, ⟨55, _⟩ => ⟨S1024x100000, .f32⟩
  | .hbm, ⟨56, _⟩ => ⟨S1024x100000, .f32⟩
  | .hbm, ⟨57, _⟩ => ⟨S_, .f32⟩
  | .hbm, ⟨58, _⟩ => ⟨S1024x100000, .f32⟩
  | .hbm, ⟨59, _⟩ => ⟨S1024x100000, .f32⟩
  | .hbm, ⟨60, _⟩ => ⟨S_, .f32⟩
  | .hbm, ⟨61, _⟩ => ⟨S1024x100000, .f32⟩
  | .hbm, ⟨62, _⟩ => ⟨S1024x100000, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_call2_v2 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  slices_S2048x32_S1024x32_0_0 : S2048x32.Slices ![0, 0] S1024x32
  reducesTo_S1024x32_S1024_d1 : S1024x32.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x32_0_1 : S1024x1.BroadcastsInDim S1024x32 (![0, 1] : Fin 2 → Fin S1024x32.rank)
  slices_S2048x32_S1024x32_1024_0 : S2048x32.Slices ![1024, 0] S1024x32
  reducesTo_S100000x32_S100000_d1 : S100000x32.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  slices_S1024x32_S1024x16_0_0 : S1024x32.Slices ![0, 0] S1024x16
  slices_S1024x32_S1024x16_0_16 : S1024x32.Slices ![0, 16] S1024x16
  slices_S100000x32_S100000x16_0_0 : S100000x32.Slices ![0, 0] S100000x16
  slices_S100000x32_S100000x16_0_16 : S100000x32.Slices ![0, 16] S100000x16
  transposes_S100000x16_S16x100000_1_0 : S100000x16.Transposes [1, 0] S16x100000
  bcast_S_S1024x100000 : S_.BroadcastsInDim S1024x100000 (![] : Fin 0 → Fin S1024x100000.rank)
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.KernelBody.lean ====
/-
  The kernel body's Hoare triple, for any float instance.

  The body reads its two input staging buffers whole (the 2048 x 32 head-and-relation block and a 2048 x 32 tile of the
  entity table), computes one 1024 x 2048 tile of scores, and overwrites its output staging buffer whole with it.  So
  whatever the three buffers hold, the body runs without a fault, leaves the two inputs as they were, and leaves the
  output buffer holding the tile: the payload of its one store as a function of the two loaded blocks.
-/
import proofs.«149146_g79044578115790_cont_9to1c4b_482_2_alg».proof.Proof.Gen.Kernel.Frame
import proofs.«149146_g79044578115790_cont_9to1c4b_482_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 2048 x 32 input block, as the rectangle both loads read. -/
abbrev rIn : Rect S2048x32 := Rect.unit (s := S2048x32) ![0, 0] S2048x32.size inb_S2048x32_S2048x32_0_0
/-- The whole 1024 x 2048 output tile, as the rectangle the store writes. -/
abbrev rOut : Rect S1024x2048 := Rect.unit (s := S1024x2048) ![0, 0] S1024x2048.size inb_S1024x2048_S1024x2048_0_0

/-- What the output buffer holds after the body: its one store, of the score tile computed from the two loaded blocks. -/
def stored (x0 x1 : Vec F S2048x32 .f32) : Vec F S1024x2048 .f32 :=
  View.canon [⟨rOut, k0_pay1 (View.ld x0 rIn) (View.ld x1 rIn)⟩]

/-- The one store covers the whole buffer. -/
theorem cover_out (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

set_option maxHeartbeats 1000000 in
/-- The body on whole staging memrefs: the inputs at contents `x0`, `x1` and the output at anything; it returns with the
    inputs as they were and the output at `stored x0 x1`. -/
theorem sound_kernel (c : Dev nD) (E : Set ℕ) (i : grid0.Coords) (arg1 : Memref sig .tc .vmem S2048x32 .f32) (harg1 : arg1.IsWhole)
    (arg2 : Memref sig .tc .vmem S2048x32 .f32) (harg2 : arg2.IsWhole) (arg3 : Memref sig .tc .vmem S1024x2048 .f32) (harg3 : arg3.IsWhole)
    (x0 : Vec F S2048x32 .f32) (x1 : Vec F S2048x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The stored tile is the payload of the two blocks themselves: both loads read their buffers whole, and the store writes
    the output buffer whole. -/
theorem stored_eq (x0 x1 : Vec F S2048x32 .f32) : stored x0 x1 = k0_pay1 x0 x1 := by
  have hz : (![0, 0] : Fin 2 → Nat) = fun _ => 0 := funext fun a => by fin_cases a <;> rfl
  unfold stored
  rw [View.canon_unit_zero hz]
  simp only [View.ld_unit_zero (S := S2048x32) hz]

end Cert.Kernel.Hand

end
-- ==== Proof.KernelFrame.lean ====
/-
  The word-level program's frame: it terminates, faults nowhere, and leaves its two argument arrays as they were.

  The last tile of the entity table overhangs the table by 352 rows, so at the last grid point the staging buffer's tail
  holds words nothing names, and at the word level a matrix product's entry may depend on the whole right-hand tile.
  Nothing is therefore said here of what the body leaves in any staging buffer: the proof data only relates what the body
  is handed to what it leaves, and the relation is the trivial one.  That is enough for the frame: the body faults on no
  contents, an input array is never written, so both arguments end as they began.
-/
import proofs.«149146_g79044578115790_cont_9to1c4b_482_2_alg».proof.Proof.KernelBody
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them; of what the body leaves
    in a staging buffer, nothing; the invariant the scoped rest and the generator register, untouched; nothing owed; full
    shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

set_option maxHeartbeats 1000000 in
/-- The body at any point, on whatever the three current staging buffers hold. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply (sound_kernel c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (stored (Y 0) (Y 1)); isplitr; · ipureintro; trivial
    iexact H2

/-- The library's relational body obligation, at every point. -/
theorem body_obligation (c : Dev nD) : (rdat (F := F) m c).BodyObligation (defs₀ (F := F)) Variants.none () Set.univ := fun t Y _ => by
  rw [bigSep_W0, bigSep_W0]
  exact sound_body m c t Y

set_option backward.isDefEq.respectTransparency.types false in
/-- From any memory with zero counters every weakly fair execution of @main terminates, and every final state has each
    windowed array at contents the relational data allows. -/
theorem run_main : θ_run defs (onTc (τ := τ) (main (F := F))) (s₀ m ρ) (RDat.FramePost cfg0 (rdat m) (V m)) :=
  Pipeline.RDat.θ_run_frame cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: both argument arrays are inputs of the pipeline, never written, so they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c), h1.trans (V_main_arg1 m c)⟩) (run_main m ρ)

end Cert.Kernel.Hand

end
-- ==== Proof.KernelIdealBody.lean ====
/-
  The kernel body's Hoare triple, for any float instance.

  The body reads its two input staging buffers whole (the 2048 x 32 head-and-relation block and a 2048 x 32 tile of the
  entity table), computes one 1024 x 2048 tile of scores, and overwrites its output staging buffer whole with it.  So
  whatever the three buffers hold, the body runs without a fault, leaves the two inputs as they were, and leaves the
  output buffer holding the tile: the payload of its one store as a function of the two loaded blocks.
-/
import proofs.«149146_g79044578115790_cont_9to1c4b_482_2_alg».proof.Proof.Gen.KernelIdeal.Frame
import proofs.«149146_g79044578115790_cont_9to1c4b_482_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 2048 x 32 input block, as the rectangle both loads read. -/
abbrev rIn : Rect S2048x32 := Rect.unit (s := S2048x32) ![0, 0] S2048x32.size inb_S2048x32_S2048x32_0_0
/-- The whole 1024 x 2048 output tile, as the rectangle the store writes. -/
abbrev rOut : Rect S1024x2048 := Rect.unit (s := S1024x2048) ![0, 0] S1024x2048.size inb_S1024x2048_S1024x2048_0_0

/-- What the output buffer holds after the body: its one store, of the score tile computed from the two loaded blocks. -/
def stored (x0 x1 : Vec F S2048x32 .f32) : Vec F S1024x2048 .f32 :=
  View.canon [⟨rOut, k0_pay1 (View.ld x0 rIn) (View.ld x1 rIn)⟩]

/-- The one store covers the whole buffer. -/
theorem cover_out (p0 : Vec F S1024x2048 .f32) (y : S1024x2048.Idx) :
    ∃ pc ∈ ([⟨rOut, p0⟩] : List (View.Piece (Elt F) S1024x2048 .f32)), y ∈ pc.1.set :=
  View.cover_of_tiled [⟨rOut, p0⟩] S1024x2048.size (by rfl) y

set_option maxHeartbeats 1000000 in
/-- The body on whole staging memrefs: the inputs at contents `x0`, `x1` and the output at anything; it returns with the
    inputs as they were and the output at `stored x0 x1`. -/
theorem sound_kernel (c : Dev nD) (E : Set ℕ) (i : grid0.Coords) (arg1 : Memref sig .tc .vmem S2048x32 .f32) (harg1 : arg1.IsWhole)
    (arg2 : Memref sig .tc .vmem S2048x32 .f32) (harg2 : arg2.IsWhole) (arg3 : Memref sig .tc .vmem S1024x2048 .f32) (harg3 : arg3.IsWhole)
    (x0 : Vec F S2048x32 .f32) (x1 : Vec F S2048x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__score_kernel i arg1 harg1 arg2 harg2 arg3 harg3) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- The stored tile is the payload of the two blocks themselves: both loads read their buffers whole, and the store writes
    the output buffer whole. -/
theorem stored_eq (x0 x1 : Vec F S2048x32 .f32) : stored x0 x1 = k0_pay1 x0 x1 := by
  have hz : (![0, 0] : Fin 2 → Nat) = fun _ => 0 := funext fun a => by fin_cases a <;> rfl
  unfold stored
  rw [View.canon_unit_zero hz]
  simp only [View.ld_unit_zero (S := S2048x32) hz]

end Cert.KernelIdeal.Hand

end
-- ==== Proof.ScoreSpec.lean ====
/-
  The mathematics the two programs share, over the extended reals, with no program in sight.

  A row `x` of 32 numbers is normalised to `x / max (sqrt (sum of x_k^2)) eps`, `eps` the value of one fixed
  single-precision word.  Three normalised rows `h`, `r`, `t`, each read as 16 complex numbers (real parts in the
  first half, imaginary parts in the second), give the score `Re (sum of h_d * r_d * conj t_d)`, and the result is the
  logistic function of the score.

  One program spells the score as a single 32-term sum of `fold h r k * t k`, where `fold h r` is the complex product
  `h * r` laid out as a 32-vector; the other as four 16-term sums.  The two agree whenever the rows are real numbers,
  by distributivity, which is where finiteness is needed: a normalised row of real numbers is again real, because the
  norm is clamped from below by the positive number `eps`.
-/
import Idealize.ShloMosaic.PureOps.Ideal.Laws
import Idealize.ShloMosaic.Lib.ValueIdx

noncomputable section

open scoped BigOperators

namespace Cert.ScoreSpec

open Idealize.ShloMosaic Idealize.ShloMosaic.ValueIdx

/-- An extended real that is a real number. -/
def IsReal (x : EReal) : Prop := ∃ r : ℝ, x = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The clamp -/

/-- The lower clamp of a row's norm: the value of the word both programs spell. -/
def eps : EReal := Ideal.ofBits .f32 0x2B8CBCCC#32

/-- It is a positive real number. -/
theorem eps_pos : ∃ e : ℝ, 0 < e ∧ eps = (e : EReal) := by
  have h : eps = ((((2 ^ 23 + 834764 : ℕ) : ℝ) * (2 : ℝ) ^ ((87 : ℤ) - 127 - 23) : ℝ) : EReal) := by
    simp [eps, Ideal.ofBits, Ideal.ieee, -EReal.coe_mul]
  exact ⟨_, by positivity, h⟩

/-! ## A normalised row -/

/-- The clamped Euclidean norm of a row. -/
def rowNorm (x : Fin 32 → EReal) : EReal := max (Ideal.sqrt (∑ k : Fin 32, x k * x k)) eps

/-- The row divided by its clamped norm. -/
def unitRow (x : Fin 32 → EReal) (k : Fin 32) : EReal := Ideal.div (x k) (rowNorm x)

/-- The clamped norm of a real row is a positive real. -/
theorem rowNorm_real (x : Fin 32 → EReal) (hx : ∀ k, IsReal (x k)) : ∃ n : ℝ, 0 < n ∧ rowNorm x = (n : EReal) := by
  choose f hf using hx
  obtain ⟨e, he, hee⟩ := eps_pos
  have hs : (∑ k : Fin 32, x k * x k) = ((∑ k : Fin 32, f k * f k : ℝ) : EReal) := by
    rw [coe_sum]; exact Finset.sum_congr rfl fun k _ => by rw [hf k, EReal.coe_mul]
  have hnn : ¬ (∑ k : Fin 32, f k * f k) < 0 := not_lt.mpr (Finset.sum_nonneg fun k _ => mul_self_nonneg (f k))
  refine ⟨max (Real.sqrt (∑ k : Fin 32, f k * f k)) e, lt_max_of_lt_right he, ?_⟩
  unfold rowNorm
  rw [hs, Ideal.sqrt_coe, if_neg hnn, hee]
  exact (Monotone.map_max EReal.coe_strictMono.monotone).symm

/-- A normalised real row is real. -/
theorem unitRow_real (x : Fin 32 → EReal) (hx : ∀ k, IsReal (x k)) (k : Fin 32) : IsReal (unitRow x k) := by
  obtain ⟨n, hn, hne⟩ := rowNorm_real x hx
  obtain ⟨a, ha⟩ := hx k
  refine ⟨a * (1 / n), ?_⟩
  unfold unitRow
  rw [hne, Ideal.div_coe (ne_of_gt hn), ha, EReal.coe_mul]

/-! ## The score, in its two spellings -/

/-- Position `d` of the first half (the real parts). -/
abbrev lo (d : Fin 16) : Fin 32 := Fin.castAdd 16 d
/-- Position `d` of the second half (the imaginary parts). -/
abbrev hi (d : Fin 16) : Fin 32 := Fin.natAdd 16 d

/-- The complex product `h * r` as a 32-vector: real parts `h_re r_re - h_im r_im`, then imaginary parts
    `h_re r_im + h_im r_re`. -/
def fold (h r : Fin 32 → EReal) : Fin 32 → EReal :=
  Fin.append (fun d : Fin 16 => h (lo d) * r (lo d) - h (hi d) * r (hi d))
    (fun d : Fin 16 => h (lo d) * r (hi d) + h (hi d) * r (lo d))

/-- The score as one 32-term sum. -/
def scoreFolded (h r t : Fin 32 → EReal) : EReal := ∑ k : Fin 32, fold h r k * t k

/-- The score as four 16-term sums, added and subtracted in this order. -/
def scoreFour (h r t : Fin 32 → EReal) : EReal :=
  ((∑ d : Fin 16, (h (lo d) * r (lo d)) * t (lo d) + ∑ d : Fin 16, (h (lo d) * r (hi d)) * t (hi d))
    + ∑ d : Fin 16, (h (hi d) * r (lo d)) * t (hi d)) - ∑ d : Fin 16, (h (hi d) * r (hi d)) * t (lo d)

/-- On real rows the two spellings agree: distribute `t` over the folded factors and regroup. -/
theorem scoreFolded_eq_scoreFour (h r t : Fin 32 → EReal) (hh : ∀ k, IsReal (h k)) (hr : ∀ k, IsReal (r k))
    (ht : ∀ k, IsReal (t k)) : scoreFolded h r t = scoreFour h r t := by
  choose fh hfh using hh
  choose fr hfr using hr
  choose ft hft using ht
  obtain rfl : h = fun k => (fh k : EReal) := funext hfh
  obtain rfl : r = fun k => (fr k : EReal) := funext hfr
  obtain rfl : t = fun k => (ft k : EReal) := funext hft
  unfold scoreFolded scoreFour fold
  rw [show (∑ k : Fin 32, Fin.append (fun d : Fin 16 => (fh (lo d) : EReal) * fr (lo d) - fh (hi d) * fr (hi d))
        (fun d : Fin 16 => (fh (lo d) : EReal) * fr (hi d) + fh (hi d) * fr (lo d)) k * (ft k : EReal))
      = ∑ k : Fin (16 + 16), Fin.append (fun d : Fin 16 => (fh (lo d) : EReal) * fr (lo d) - fh (hi d) * fr (hi d))
        (fun d : Fin 16 => (fh (lo d) : EReal) * fr (hi d) + fh (hi d) * fr (lo d)) k * (ft k : EReal) from rfl,
    Fin.sum_univ_add]
  simp only [Fin.append_left, Fin.append_right]
  simp only [← EReal.coe_mul, ← EReal.coe_add, ← EReal.coe_sub, ← coe_sum]
  refine congrArg _ ?_
  simp only [sub_mul, add_mul, Finset.sum_add_distrib, Finset.sum_sub_distrib]
  ring

/-! ## The whole result -/

/-- Row `i` of an `n x 32` array. -/
def row {n : Nat} (A : (⟨2, ![n, 32]⟩ : Shape).Idx → EReal) (i : Fin n) : Fin 32 → EReal := fun k => A (ix2 i k)

/-- The logistic score of head row `b`, relation row `1024 + b` (both rows of the one `2048 x 32` array `H`) against
    row `n` of an `N x 32` table `E`. -/
def scoreAt {N : Nat} (H : (⟨2, ![2048, 32]⟩ : Shape).Idx → EReal) (E : (⟨2, ![N, 32]⟩ : Shape).Idx → EReal)
    (b : Fin 1024) (n : Fin N) : EReal :=
  Ideal.logistic (scoreFolded (unitRow (row H ⟨b.val, by omega⟩)) (unitRow (row H ⟨b.val + 1024, by omega⟩)) (unitRow (row E n)))

/-- The result as one function of the two argument arrays, index by index. -/
def result {N : Nat} (H : (⟨2, ![2048, 32]⟩ : Shape).Idx → EReal) (E : (⟨2, ![N, 32]⟩ : Shape).Idx → EReal) :
    (⟨2, ![1024, N]⟩ : Shape).Idx → EReal := fun i => scoreAt H E (i 0) (i 1)

end Cert.ScoreSpec

end
-- ==== Proof.TileValue.lean ====
/-
  One tile of the result, index by index, at the exact instance.

  The body's arithmetic, read at row `b` and column `n` of its 1024 x 2048 output tile, is the logistic score of the
  normalised head row `b`, the normalised relation row `1024 + b` (both rows of the first block) and the normalised row
  `n` of the second block.  In particular column `n` of the tile depends on the second block through its row `n` alone.

  The steps: a matrix product into a zero accumulator is the plain sum over the contracted axis; a sum along a row,
  kept as a column and broadcast back along the row, is the same number at every position of the row; a slice reads
  the operand at shifted coordinates; the concatenation of two 16-wide halves reads the first or the second half.
-/
import proofs.«149146_g79044578115790_cont_9to1c4b_482_2_alg».proof.Proof.Gen.KernelIdeal.Skeleton
import proofs.«149146_g79044578115790_cont_9to1c4b_482_2_alg».proof.Proof.ScoreSpec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Cert.ScoreSpec
open Idealize.ShloMosaic Idealize.ShloMosaic.ValueIdx

/-! ## Normalising every row of a block -/

/-- Every row of a 1024 x 32 block divided by its clamped norm, as the body computes it. -/
def nrm1024 (x : FVec Ideal S1024x32 .f32) : FVec Ideal S1024x32 .f32 :=
  divf x (broadcastTo S1024x32 (maximumf (sqrt (shapeCast S1024x1 (multiReduction .add [1] S1024 (mulf x x) 0x00000000#32 reduces_S1024x32_S1024 (.inl rfl) rfl) shapeCasts_S1024_S1024x1)) (broadcast S1024x1 (Scalar.ofBits .f32 0x2B8CBCCC#32))) broadcasts_S1024x1_S1024x32)

/-- Every row of a 2048 x 32 block divided by its clamped norm, as the body computes it. -/
def nrm2048 (x : FVec Ideal S2048x32 .f32) : FVec Ideal S2048x32 .f32 :=
  divf x (broadcastTo S2048x32 (maximumf (sqrt (shapeCast S2048x1 (multiReduction .add [1] S2048 (mulf x x) 0x00000000#32 reduces_S2048x32_S2048 (.inl rfl) rfl) shapeCasts_S2048_S2048x1)) (broadcast S2048x1 (Scalar.ofBits .f32 0x2B8CBCCC#32))) broadcasts_S2048x1_S2048x32)

/-- Entry `(i, k)` of the normalised block is entry `k` of row `i` normalised. -/
theorem nrm1024_apply (x : FVec Ideal S1024x32 .f32) (i : Fin 1024) (k : Fin 32) :
    nrm1024 x (ix2 i k) = unitRow (row x i) k := by
  have hb : broadcastTo S1024x32 (maximumf (sqrt (shapeCast S1024x1 (multiReduction .add [1] S1024 (mulf x x) 0x00000000#32 reduces_S1024x32_S1024 (.inl rfl) rfl) shapeCasts_S1024_S1024x1)) (broadcast S1024x1 (Scalar.ofBits .f32 0x2B8CBCCC#32))) broadcasts_S1024x1_S1024x32 (ix2 i k) = rowNorm (row x i) := by
    refine (broadcastTo_apply _ broadcasts_S1024x1_S1024x32 (ix2 i k) (ix2 i (0 : Fin 1)) (fun a => by
      match a with
      | ⟨0, _⟩ => rfl
      | ⟨1, _⟩ => rfl)).trans ?_
    show max (Ideal.sqrt (shapeCast S1024x1 _ shapeCasts_S1024_S1024x1 (ix2 i (0 : Fin 1)))) (Ideal.ofBits .f32 0x2B8CBCCC#32) = _
    refine congrArg (fun z => max (Ideal.sqrt z) (Ideal.ofBits .f32 0x2B8CBCCC#32)) ?_
    refine (shapeCast_apply _ shapeCasts_S1024_S1024x1 (ix2 i (0 : Fin 1)) (ix1 i) (by
      rw [Shape.rowMajor_val_one, Shape.rowMajor_val_two]; show i.val = i.val * 1 + 0; omega)).trans ?_
    refine (Ideal.multiReduction_add_single (mulf x x) 0x00000000#32 reduces_S1024x32_S1024 (.inl rfl) rfl (ix1 i)).trans ?_
    show (∑ k : Fin 32, x (reduces_S1024x32_S1024.lift (ix1 i) k) * x (reduces_S1024x32_S1024.lift (ix1 i) k)) = ∑ k : Fin 32, x (ix2 i k) * x (ix2 i k)
    refine Finset.sum_congr rfl fun k _ => ?_
    have e : reduces_S1024x32_S1024.lift (ix1 i) k = ix2 i k := funext fun a => Fin.ext (by
      match a with
      | ⟨0, _⟩ => rfl
      | ⟨1, _⟩ => rfl)
    rw [e]
  show Ideal.div (x (ix2 i k)) _ = Ideal.div (x (ix2 i k)) (rowNorm (row x i))
  rw [hb]

/-- The same for a 2048-row block. -/
theorem nrm2048_apply (x : FVec Ideal S2048x32 .f32) (i : Fin 2048) (k : Fin 32) :
    nrm2048 x (ix2 i k) = unitRow (row x i) k := by
  have hb : broadcastTo S2048x32 (maximumf (sqrt (shapeCast S2048x1 (multiReduction .add [1] S2048 (mulf x x) 0x00000000#32 reduces_S2048x32_S2048 (.inl rfl) rfl) shapeCasts_S2048_S2048x1)) (broadcast S2048x1 (Scalar.ofBits .f32 0x2B8CBCCC#32))) broadcasts_S2048x1_S2048x32 (ix2 i k) = rowNorm (row x i) := by
    refine (broadcastTo_apply _ broadcasts_S2048x1_S2048x32 (ix2 i k) (ix2 i (0 : Fin 1)) (fun a => by
      match a with
      | ⟨0, _⟩ => rfl
      | ⟨1, _⟩ => rfl)).trans ?_
    show max (Ideal.sqrt (shapeCast S2048x1 _ shapeCasts_S2048_S2048x1 (ix2 i (0 : Fin 1)))) (Ideal.ofBits .f32 0x2B8CBCCC#32) = _
    refine congrArg (fun z => max (Ideal.sqrt z) (Ideal.ofBits .f32 0x2B8CBCCC#32)) ?_
    refine (shapeCast_apply _ shapeCasts_S2048_S2048x1 (ix2 i (0 : Fin 1)) (ix1 i) (by
      rw [Shape.rowMajor_val_one, Shape.rowMajor_val_two]; show i.val = i.val * 1 + 0; omega)).trans ?_
    refine (Ideal.multiReduction_add_single (mulf x x) 0x00000000#32 reduces_S2048x32_S2048 (.inl rfl) rfl (ix1 i)).trans ?_
    show (∑ k : Fin 32, x (reduces_S2048x32_S2048.lift (ix1 i) k) * x (reduces_S2048x32_S2048.lift (ix1 i) k)) = ∑ k : Fin 32, x (ix2 i k) * x (ix2 i k)
    refine Finset.sum_congr rfl fun k _ => ?_
    have e : reduces_S2048x32_S2048.lift (ix1 i) k = ix2 i k := funext fun a => Fin.ext (by
      match a with
      | ⟨0, _⟩ => rfl
      | ⟨1, _⟩ => rfl)
    rw [e]
  show Ideal.div (x (ix2 i k)) _ = Ideal.div (x (ix2 i k)) (rowNorm (row x i))
  rw [hb]

/-! ## The folded left factor -/

/-- The complex product of two blocks of 1024 rows, row by row, as the body lays it out: the real parts in columns
    0..15, the imaginary parts in columns 16..31. -/
def foldBlock (h r : FVec Ideal S1024x32 .f32) : FVec Ideal S1024x32 .f32 :=
  concatenate S1024x32 1
    [⟨S1024x16, subf (mulf (extractStridedSlice S1024x16 ![0, 0] h slices_S1024x32_o0_0_S1024x16) (extractStridedSlice S1024x16 ![0, 0] r slices_S1024x32_o0_0_S1024x16))
        (mulf (extractStridedSlice S1024x16 ![0, 16] h slices_S1024x32_o0_16_S1024x16) (extractStridedSlice S1024x16 ![0, 16] r slices_S1024x32_o0_16_S1024x16))⟩,
     ⟨S1024x16, addf (mulf (extractStridedSlice S1024x16 ![0, 0] h slices_S1024x32_o0_0_S1024x16) (extractStridedSlice S1024x16 ![0, 16] r slices_S1024x32_o0_16_S1024x16))
        (mulf (extractStridedSlice S1024x16 ![0, 16] h slices_S1024x32_o0_16_S1024x16) (extractStridedSlice S1024x16 ![0, 0] r slices_S1024x32_o0_0_S1024x16))⟩]
    concatenates_S1024x16_S1024x16_S1024x32_d1

/-- A 16-wide slice at column offset 0 reads the first half. -/
theorem sliceLo_apply (h : FVec Ideal S1024x32 .f32) (b : Fin 1024) (d : Fin 16) :
    extractStridedSlice S1024x16 ![0, 0] h slices_S1024x32_o0_0_S1024x16 (ix2 b d) = h (ix2 b (lo d)) :=
  extractStridedSlice_apply ![0, 0] h slices_S1024x32_o0_0_S1024x16 (ix2 b d) (ix2 b (lo d)) (fun a => by
    match a with
    | ⟨0, _⟩ => show b.val = 0 + b.val; omega
    | ⟨1, _⟩ => show d.val = 0 + d.val; omega)

/-- A 16-wide slice at column offset 16 reads the second half. -/
theorem sliceHi_apply (h : FVec Ideal S1024x32 .f32) (b : Fin 1024) (d : Fin 16) :
    extractStridedSlice S1024x16 ![0, 16] h slices_S1024x32_o0_16_S1024x16 (ix2 b d) = h (ix2 b (hi d)) :=
  extractStridedSlice_apply ![0, 16] h slices_S1024x32_o0_16_S1024x16 (ix2 b d) (ix2 b (hi d)) (fun a => by
    match a with
    | ⟨0, _⟩ => show b.val = 0 + b.val; omega
    | ⟨1, _⟩ => show 16 + d.val = 16 + d.val; rfl)

/-- Entry `(b, k)` of the folded block is entry `k` of the complex product of rows `b`. -/
theorem foldBlock_apply (h r : FVec Ideal S1024x32 .f32) (b : Fin 1024) (k : Fin 32) :
    foldBlock h r (ix2 b k) = fold (row h b) (row r b) k := by
  unfold fold foldBlock
  by_cases hk : k.val < 16
  · obtain ⟨d, rfl⟩ : ∃ d : Fin 16, k = lo d := ⟨⟨k.val, hk⟩, Fin.ext rfl⟩
    rw [Fin.append_left]
    refine (concatenate_pair_apply_left (t := S1024x32) (s₁ := S1024x16) (s₂ := S1024x16) (1 : Fin 2) _ _ concatenates_S1024x16_S1024x16_S1024x32_d1 (ix2 b (lo d)) rfl (ix2 b d) (fun a => by
      match a with
      | ⟨0, _⟩ => rfl
      | ⟨1, _⟩ => rfl)).trans ?_
    show extractStridedSlice S1024x16 ![0, 0] h slices_S1024x32_o0_0_S1024x16 (ix2 b d) * extractStridedSlice S1024x16 ![0, 0] r slices_S1024x32_o0_0_S1024x16 (ix2 b d)
        - extractStridedSlice S1024x16 ![0, 16] h slices_S1024x32_o0_16_S1024x16 (ix2 b d) * extractStridedSlice S1024x16 ![0, 16] r slices_S1024x32_o0_16_S1024x16 (ix2 b d) = _
    rw [sliceLo_apply, sliceLo_apply, sliceHi_apply, sliceHi_apply]
    rfl
  · obtain ⟨d, rfl⟩ : ∃ d : Fin 16, k = hi d :=
      ⟨⟨k.val - 16, by omega⟩, Fin.ext (by show k.val = 16 + (k.val - 16); omega)⟩
    rw [Fin.append_right]
    refine (concatenate_pair_apply_right (t := S1024x32) (s₁ := S1024x16) (s₂ := S1024x16) (1 : Fin 2) _ _ concatenates_S1024x16_S1024x16_S1024x32_d1 (ix2 b (hi d)) rfl rfl (ix2 b d) (fun a ha => by
      match a with
      | ⟨0, _⟩ => rfl
      | ⟨1, _⟩ => exact absurd rfl ha) (by show d.val + 16 = 16 + d.val; omega)).trans ?_
    show extractStridedSlice S1024x16 ![0, 0] h slices_S1024x32_o0_0_S1024x16 (ix2 b d) * extractStridedSlice S1024x16 ![0, 16] r slices_S1024x32_o0_16_S1024x16 (ix2 b d)
        + extractStridedSlice S1024x16 ![0, 16] h slices_S1024x32_o0_16_S1024x16 (ix2 b d) * extractStridedSlice S1024x16 ![0, 0] r slices_S1024x32_o0_0_S1024x16 (ix2 b d) = _
    rw [sliceLo_apply, sliceLo_apply, sliceHi_apply, sliceHi_apply]
    rfl

/-! ## The two halves of the first block -/

/-- Rows 0..1023 of the first block read its rows 0..1023. -/
theorem top_apply (x0 : FVec Ideal S2048x32 .f32) (b : Fin 1024) (k : Fin 32) :
    extractStridedSlice S1024x32 ![0, 0] x0 slices_S2048x32_o0_0_S1024x32 (ix2 b k) = x0 (ix2 (⟨b.val, by omega⟩ : Fin 2048) k) :=
  extractStridedSlice_apply ![0, 0] x0 slices_S2048x32_o0_0_S1024x32 (ix2 b k) (ix2 (⟨b.val, by omega⟩ : Fin 2048) k) (fun a => by
    match a with
    | ⟨0, _⟩ => show b.val = 0 + b.val; omega
    | ⟨1, _⟩ => show k.val = 0 + k.val; omega)

/-- Rows 0..1023 of the slice at row offset 1024 read rows 1024..2047. -/
theorem bottom_apply (x0 : FVec Ideal S2048x32 .f32) (b : Fin 1024) (k : Fin 32) :
    extractStridedSlice S1024x32 ![1024, 0] x0 slices_S2048x32_o1024_0_S1024x32 (ix2 b k) = x0 (ix2 (⟨b.val + 1024, by omega⟩ : Fin 2048) k) :=
  extractStridedSlice_apply ![1024, 0] x0 slices_S2048x32_o1024_0_S1024x32 (ix2 b k) (ix2 (⟨b.val + 1024, by omega⟩ : Fin 2048) k) (fun a => by
    match a with
    | ⟨0, _⟩ => show b.val + 1024 = 1024 + b.val; omega
    | ⟨1, _⟩ => show k.val = 0 + k.val; omega)

/-! ## The matrix product's operand indices -/

/-- The product's dimension numbers: both operands contracted along their 32 columns. -/
abbrev dotD : DotDims S1024x32 S2048x32 S1024x2048 := dot_S1024x32_S2048x32_S1024x2048_1_1_0_0_n_n

theorem lhs0 (i : S1024x2048.Idx) (q : dotD.contr.Idx) : (dotD.lhsIdx i q 0).val = (i 0).val := by
  unfold DotDims.lhsIdx
  rw [dif_neg (show ¬(0 : Fin S1024x32.rank) ∈ dotD.lhsBatch by decide), dif_pos (show (0 : Fin S1024x32.rank) ∈ dotD.lhsNonContracting by decide)]
  rfl
theorem lhs1 (i : S1024x2048.Idx) (q : dotD.contr.Idx) : (dotD.lhsIdx i q 1).val = (q ⟨0, by decide⟩).val :=
  dotD.lhsIdx_val_of_single rfl i q
theorem rhs0 (i : S1024x2048.Idx) (q : dotD.contr.Idx) : (dotD.rhsIdx i q 0).val = (i 1).val := by
  unfold DotDims.rhsIdx
  rw [dif_neg (show ¬(0 : Fin S2048x32.rank) ∈ dotD.rhsBatch by decide), dif_pos (show (0 : Fin S2048x32.rank) ∈ dotD.rhsNonContracting by decide)]
  rfl
theorem rhs1 (i : S1024x2048.Idx) (q : dotD.contr.Idx) : (dotD.rhsIdx i q 1).val = (q ⟨0, by decide⟩).val :=
  dotD.rhsIdx_val_of_single rfl i q

/-- The product into the zero accumulator, at row `b` and column `n`: the sum over the 32 columns of the left operand's
    row `b` times the right operand's row `n`. -/
theorem matmul_zero_apply (L : FVec Ideal S1024x32 .f32) (R : FVec Ideal S2048x32 .f32) (b : Fin 1024) (n : Fin 2048) :
    matmul dotD none L R (constant S1024x2048 .f32 0x00000000#32) (ix2 b n) = ∑ k : Fin 32, L (ix2 b k) * R (ix2 n k) := by
  refine (Ideal.matmul_constant_zero_apply dotD none L R (ix2 b n)).trans ?_
  rw [← Equiv.sum_comp (contrEquiv1 dotD 32 rfl rfl).symm]
  refine Finset.sum_congr rfl fun k _ => ?_
  have hk := contrEquiv1_symm_val dotD 32 rfl rfl k
  have el : dotD.lhsIdx (ix2 b n) ((contrEquiv1 dotD 32 rfl rfl).symm k) = ix2 b k := funext fun a => Fin.ext (by
    match a with
    | ⟨0, _⟩ => exact lhs0 _ _
    | ⟨1, _⟩ => exact (lhs1 _ _).trans hk)
  have er : dotD.rhsIdx (ix2 b n) ((contrEquiv1 dotD 32 rfl rfl).symm k) = ix2 n k := funext fun a => Fin.ext (by
    match a with
    | ⟨0, _⟩ => exact rhs0 _ _
    | ⟨1, _⟩ => exact (rhs1 _ _).trans hk)
  rw [el, er]

/-! ## The tile -/

/-- The body's whole computation from its two loaded blocks, in the pieces above. -/
def tile (x0 x1 : FVec Ideal S2048x32 .f32) : FVec Ideal S1024x2048 .f32 :=
  logistic (matmul dotD none
    (foldBlock (nrm1024 (extractStridedSlice S1024x32 ![0, 0] x0 slices_S2048x32_o0_0_S1024x32))
      (nrm1024 (extractStridedSlice S1024x32 ![1024, 0] x0 slices_S2048x32_o1024_0_S1024x32)))
    (nrm2048 x1) (constant S1024x2048 .f32 0x00000000#32))

/-- It is the payload the body stores. -/
theorem pay_eq_tile (x0 x1 : FVec Ideal S2048x32 .f32) : k0_pay1 (F := Ideal) x0 x1 = tile x0 x1 := rfl

/-- Entry `(b, n)` of the tile: the logistic score of head row `b`, relation row `1024 + b` and row `n` of the second
    block. -/
theorem tile_apply (x0 x1 : FVec Ideal S2048x32 .f32) (b : Fin 1024) (n : Fin 2048) :
    tile x0 x1 (ix2 b n) = scoreAt x0 x1 b n := by
  unfold tile scoreAt scoreFolded
  show Ideal.logistic (matmul (F := Ideal) dotD none _ _ (constant (F := Ideal) S1024x2048 .f32 0x00000000#32) (ix2 b n)) = _
  rw [matmul_zero_apply]
  refine congrArg Ideal.logistic (Finset.sum_congr rfl fun k _ => ?_)
  rw [foldBlock_apply, nrm2048_apply]
  have e0 : row (nrm1024 (extractStridedSlice S1024x32 ![0, 0] x0 slices_S2048x32_o0_0_S1024x32)) b
      = unitRow (row x0 (⟨b.val, by omega⟩ : Fin 2048)) := by
    funext k'
    show nrm1024 _ (ix2 b k') = _
    rw [nrm1024_apply]
    refine congrArg (fun z => unitRow z k') (funext fun j => ?_)
    exact top_apply x0 b j
  have e1 : row (nrm1024 (extractStridedSlice S1024x32 ![1024, 0] x0 slices_S2048x32_o1024_0_S1024x32)) b
      = unitRow (row x0 (⟨b.val + 1024, by omega⟩ : Fin 2048)) := by
    funext k'
    show nrm1024 _ (ix2 b k') = _
    rw [nrm1024_apply]
    refine congrArg (fun z => unitRow z k') (funext fun j => ?_)
    exact bottom_apply x0 b j
  rw [e0, e1]

end Cert.KernelIdeal.Hand

end
-- ==== Proof.KernelIdealBlocks.lean ====
/-
  What a grid point writes back, at the exact instance.

  Point `t` of the 49 reads the whole head-and-relation array (its one block), rows `2048 t ..` of the entity table,
  and writes columns `2048 t ..` of the result.  The last point's blocks overhang: the table has 100000 rows and
  49 * 2048 = 100352, so the fetch fills only the first 1696 rows of the staging buffer and the write-back moves only the
  first 1696 columns of the tile.  Column `n` of the tile depends on the entity tile through its row `n` alone, so the
  columns that are moved are computed from rows that were fetched: whatever the buffer's tail holds, the moved part of
  the tile is the corresponding block of the specification's result.
-/
import proofs.«149146_g79044578115790_cont_9to1c4b_482_2_alg».proof.Proof.KernelIdealBody
import proofs.«149146_g79044578115790_cont_9to1c4b_482_2_alg».proof.Proof.TileValue
import Idealize.ShloMosaic.Lib.Pipeline.Value

set_option maxRecDepth 16384

noncomputable section

namespace Cert.KernelIdeal.Hand

open Cert.KernelIdeal Cert.KernelIdeal.Gen Cert.ScoreSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The printed index maps over the grid: the first window's block never moves, the second moves down the rows with the
    point, the third along the columns. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The sizes of what the transfers move: whole blocks, cut at the 100000th row (column) at the last point. -/
theorem size_facts : ∀ t : Fin cfg0.N,
    win0_1.xsize (grid0.coords t) (0 : Fin 2) = min 2048 (100000 - t.val * 2048) ∧ win0_1.xsize (grid0.coords t) (1 : Fin 2) = 32
    ∧ win0_2.xsize (grid0.coords t) (0 : Fin 2) = 1024 ∧ win0_2.xsize (grid0.coords t) (1 : Fin 2) = min 2048 (100000 - t.val * 2048) :=
  (by decide +kernel : ∀ t : Fin grid0.N, _)

/-- The grid has 49 points. -/
theorem t_lt (t : Fin cfg0.N) : t.val < 49 := t.isLt

/-- THE MOVED PART OF THE STORED TILE: at point `t`, with the head block as fetched and the entity tile as fetched and
    filled out by any `d1`, the part of the stored tile the write-back moves is block `t` of the specification's result of
    the two argument arrays. -/
theorem moved_eq (c : Dev nD) (t : Fin cfg0.N) (d1 : (cfg0.win 1).block.Idx → Elt Ideal (cfg0.win 1).elt) :
    (cfg0.win 2).cut (grid0.coords t) (stored (iblk m c 0 t) ((cfg0.win 1).fill (grid0.coords t) d1 (iblk m c 1 t)))
      = ((cfg0.win 2).blk t).view.read (Elt Ideal) (result (V m c main_arg0) (V m c main_arg1)) := by
  obtain ⟨i00, i01, i10, i11, i20, i21⟩ := idx_facts t
  obtain ⟨s10, s11, s20, s21⟩ := size_facts t
  have ht := t_lt t
  funext j
  have hj0 : (j 0).val < 1024 := by
    have h := (j 0).isLt
    change (j 0).val < win0_2.xsize (grid0.coords t) (0 : Fin 2) at h
    omega
  have hj1 : (j 1).val < min 2048 (100000 - t.val * 2048) := by
    have h := (j 1).isLt
    change (j 1).val < win0_2.xsize (grid0.coords t) (1 : Fin 2) at h
    omega
  have hj1a : (j 1).val < 2048 := by omega
  have hj1b : t.val * 2048 + (j 1).val < 100000 := by omega
  rw [stored_eq, pay_eq_tile]
  show tile _ _ ((cfg0.win 2).xinj (grid0.coords t) j) = result _ _ (((cfg0.win 2).blk t).view.emb j)
  have ej : (cfg0.win 2).xinj (grid0.coords t) j = ix2 (⟨(j 0).val, hj0⟩ : Fin 1024) (⟨(j 1).val, hj1a⟩ : Fin 2048) :=
    funext fun a => Fin.ext (by match a with | ⟨0, _⟩ => rfl | ⟨1, _⟩ => rfl)
  have ee : ((cfg0.win 2).blk t).view.emb j = ix2 (⟨(j 0).val, hj0⟩ : Fin 1024) (⟨t.val * 2048 + (j 1).val, hj1b⟩ : Fin 100000) :=
    funext fun a => Fin.ext (by
      match a with
      | ⟨0, _⟩ => show win0_2.index t (0 : Fin 2) * 1024 + 1 * (j 0).val = (j 0).val; omega
      | ⟨1, _⟩ => show win0_2.index t (1 : Fin 2) * 2048 + 1 * (j 1).val = t.val * 2048 + (j 1).val; omega)
  rw [ej, ee, tile_apply]
  show scoreAt _ _ _ _ = scoreAt (V m c main_arg0) (V m c main_arg1) (⟨(j 0).val, hj0⟩ : Fin 1024) (⟨t.val * 2048 + (j 1).val, hj1b⟩ : Fin 100000)
  unfold scoreAt
  -- the head block is the whole first argument
  have r0 : ∀ b' : Fin 2048, row (iblk m c 0 t) b' = row (V m c main_arg0) b' := fun b' => funext fun k => by
    show V m c main_arg0 (((cfg0.win 0).blk t).view.emb (ix2 b' k)) = V m c main_arg0 (ix2 b' k)
    refine congrArg _ (funext fun a => Fin.ext ?_)
    match a with
    | ⟨0, _⟩ => show win0_0.index t (0 : Fin 2) * 2048 + 1 * b'.val = b'.val; omega
    | ⟨1, _⟩ => show win0_0.index t (1 : Fin 2) * 32 + 1 * k.val = k.val; omega
  -- a moved column's row of the entity tile was fetched: it is a row of the table
  have r1 : row ((cfg0.win 1).fill (grid0.coords t) d1 (iblk m c 1 t)) (⟨(j 1).val, hj1a⟩ : Fin 2048)
      = row (V m c main_arg1) (⟨t.val * 2048 + (j 1).val, hj1b⟩ : Fin 100000) := funext fun k => by
    have hk0 : (j 1).val < win0_1.xsize (grid0.coords t) (0 : Fin 2) := by omega
    have hk1 : k.val < win0_1.xsize (grid0.coords t) (1 : Fin 2) := by have := k.isLt; omega
    let j' : ((cfg0.win 1).xblock (grid0.coords t)).Idx := fun a => match a with
      | ⟨0, _⟩ => ⟨(j 1).val, hk0⟩
      | ⟨1, _⟩ => ⟨k.val, hk1⟩
    have ex : ix2 (⟨(j 1).val, hj1a⟩ : Fin 2048) k = (cfg0.win 1).xinj (grid0.coords t) j' :=
      funext fun a => Fin.ext (by match a with | ⟨0, _⟩ => rfl | ⟨1, _⟩ => rfl)
    show (cfg0.win 1).fill (grid0.coords t) d1 (iblk m c 1 t) (ix2 (⟨(j 1).val, hj1a⟩ : Fin 2048) k) = _
    rw [ex, Window.fill_xinj]
    show V m c main_arg1 (((cfg0.win 1).blk t).view.emb j') = V m c main_arg1 (ix2 (⟨t.val * 2048 + (j 1).val, hj1b⟩ : Fin 100000) k)
    refine congrArg _ (funext fun a => Fin.ext ?_)
    match a with
    | ⟨0, _⟩ => show win0_1.index t (0 : Fin 2) * 2048 + 1 * (j 1).val = t.val * 2048 + (j 1).val; omega
    | ⟨1, _⟩ => show win0_1.index t (1 : Fin 2) * 32 + 1 * k.val = k.val; omega
  rw [r0, r0, r1]

end Cert.KernelIdeal.Hand

end
-- ==== Proof.KernelIdealRun.lean ====
/-
  The idealized program's run: it terminates, faults nowhere, leaves its arguments as they were, and its result array
  ends holding the specification's result of the two arguments.

  The proof data name what each staging buffer holds after the body at each point: the head-and-relation block; the
  entity tile as fetched, filled out past the table's end with zeros; and the tile of scores computed from the two.  The
  body is handed the entity tile filled out with words nothing names; what it leaves agrees with the named contents on
  the part the transfers move, which is all the pipeline asks of a window whose blocks overhang.  Every column of the
  result lies in the block of the point `column / 2048`, so the write-backs cover the array.
-/
import proofs.«149146_g79044578115790_cont_9to1c4b_482_2_alg».proof.Proof.KernelIdealBlocks
import Idealize.ShloMosaic.Lib.Pipeline.Frame

set_option maxRecDepth 16384

noncomputable section

namespace Cert.KernelIdeal.Hand

open Cert.KernelIdeal Cert.KernelIdeal.Gen Cert.ScoreSpec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The entity tile at point `t`: the table's rows the fetch reads, filled out to a whole block with the zero word. -/
def entTile (c : Dev nD) (t : Fin cfg0.N) : (cfg0.win 1).block.Idx → Elt Ideal (cfg0.win 1).elt :=
  (cfg0.win 1).fill (grid0.coords t) (fun _ => (Scalar.ofBits (F := Ideal) .f32 0#32 : Elt Ideal .f32)) (iblk m c 1 t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => entTile m c t
    | ⟨2, _⟩ => stored (iblk m c 0 t) (entTile m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = entTile m c t := by dsimp only [dats]
theorem after0_2 (c : Dev nD) (t : Fin cfg0.N) : (dats m 0 c).after 2 t = stored (iblk m c 0 t) (entTile m c t) := by
  dsimp only [dats]

/-- The head-and-relation block is in its buffer at every point (fetched once, then left in place). -/
theorem before0 (c : Dev nD) (t : Fin cfg0.N) (d) : (dats m 0 c).before 0 t d = iblk m c 0 t :=
  before0_0_of m (dats m 0 c) (A_eq m c 0) (after0_0 m c) t d

/-- The entity tile is fetched at every point: the table's rows where the fetch fills the buffer, `d` past them. -/
theorem before1 (c : Dev nD) (t : Fin cfg0.N) (d) :
    (dats m 0 c).before 1 t d = (cfg0.win 1).fill (grid0.coords t) d (iblk m c 1 t) := by
  unfold Dat.before; rw [if_pos (fetch0_1 t)]; rfl

/-- The output buffer is written back at every point, so the body finds it at contents nothing names. -/
theorem before2 (c : Dev nD) (t : Fin cfg0.N) (d) : (dats m 0 c).before 2 t d = d :=
  (dats m 0 c).before_out_reset 2 rfl t (by
    by_cases h0 : t.val = 0
    · exact .inl h0
    · exact .inr ⟨h0, flush0_2 _⟩) d

/-! ## The body obligation -/

set_option maxHeartbeats 1000000 in
/-- The body at any point: the head block and the entity tile (filled out with any `d1`) are in their buffers, so the
    body's triple applies; what it leaves agrees with the named contents on the part each transfer moves. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare
                ((cfg0.win 1).fill (grid0.coords t) d ((cfg0.win 1).cut (grid0.coords t) ((dats m 0 c).after 1 t))))
            ∗ (∃ d, owns (c : Thread nD τ) (st0_2 t) fullShare
                ((cfg0.win 2).fill (grid0.coords t) d ((cfg0.win 2).cut (grid0.coords t) ((dats m 0 c).after 2 t)))))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := Ideal) c Set.univ (grid0.coords t) _ _ _ _ _ _ (iblk m c 0 t)
    ((cfg0.win 1).fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  have h1 : (cfg0.win 1).fill (grid0.coords t) d1 ((cfg0.win 1).cut (grid0.coords t) ((dats m 0 c).after 1 t))
      = (cfg0.win 1).fill (grid0.coords t) d1 (iblk m c 1 t) := by
    rw [after0_1]; unfold entTile; rw [Window.cut_fill]
  have h2 : (cfg0.win 2).fill (grid0.coords t) (stored (iblk m c 0 t) ((cfg0.win 1).fill (grid0.coords t) d1 (iblk m c 1 t)))
        ((cfg0.win 2).cut (grid0.coords t) ((dats m 0 c).after 2 t))
      = stored (iblk m c 0 t) ((cfg0.win 1).fill (grid0.coords t) d1 (iblk m c 1 t)) := by
    rw [after0_2]
    refine (cfg0.win 2).fill_congr_cut _ ?_
    unfold entTile
    rw [moved_eq, moved_eq]
  isplitl [H0]
  · rw [after0_0]; iexact H0
  isplitl [H1]
  · iexists d1
    rw [h1]; iexact H1
  · iexists (stored (iblk m c 0 t) ((cfg0.win 1).fill (grid0.coords t) d1 (iblk m c 1 t)))
    rw [h2]; iexact H2

/-- The library's body obligation at every point, in the form for windows whose blocks may overhang. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- From any memory with zero counters every weakly fair execution of @main terminates, every array of the pipeline at
    what the library computes from the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-! ## The result array -/

/-- What point `t` writes back is block `t` of the specification's result. -/
theorem flushed_eq (c : Dev nD) (t : Fin cfg0.N) :
    (dats m 0 c).flushed 2 t = ((cfg0.win 2).blk t).view.read (Elt Ideal) (result (V m c main_arg0) (V m c main_arg1)) := by
  show (cfg0.win 2).cut (grid0.coords t) ((dats m 0 c).after 2 t) = _
  rw [after0_2]
  unfold entTile
  exact moved_eq m c t _

/-- An index of the result is in point `t`'s block iff each coordinate is in the block's range, cut at the array's end. -/
theorem mem_blk (t : Fin cfg0.N) (i : S1024x100000.Idx) :
    i ∈ ((cfg0.win 2).blk t).view.set ↔ ∀ a : Fin 2, win0_2.index t a * S1024x2048.size a ≤ (i a).val
      ∧ (i a).val < win0_2.index t a * S1024x2048.size a + win0_2.xsize (grid0.coords t) a := by
  show i ∈ ((View.whole main_v0).slice (win0_2.rect t)).set ↔ _
  rw [View.set_slice_whole, Rect.mem_set_unit]
  exact Iff.rfl

/-- Every index of the result is in the block of the point `column / 2048`. -/
theorem cover (i : S1024x100000.Idx) : ∃ t : Fin cfg0.N, (cfg0.win 2).flush t = true ∧ i ∈ ((cfg0.win 2).blk t).view.set := by
  have hi0 : (i 0).val < 1024 := (i 0).isLt
  have hi1 : (i 1).val < 100000 := (i 1).isLt
  have hN : grid0.N = 49 := N_0
  have htl : (i 1).val / 2048 < cfg0.N := by show (i 1).val / 2048 < grid0.N; rw [hN]; omega
  obtain ⟨-, -, -, -, i20, i21⟩ := idx_facts ⟨(i 1).val / 2048, htl⟩
  obtain ⟨-, -, s20, s21⟩ := size_facts ⟨(i 1).val / 2048, htl⟩
  refine ⟨⟨(i 1).val / 2048, htl⟩, flush0_2 _, ?_⟩
  rw [mem_blk]
  intro a
  match a with
  | ⟨0, _⟩ =>
    show win0_2.index ⟨(i 1).val / 2048, htl⟩ (0 : Fin 2) * 1024 ≤ (i 0).val
      ∧ (i 0).val < win0_2.index ⟨(i 1).val / 2048, htl⟩ (0 : Fin 2) * 1024 + win0_2.xsize (grid0.coords ⟨(i 1).val / 2048, htl⟩) (0 : Fin 2)
    omega
  | ⟨1, _⟩ =>
    show win0_2.index ⟨(i 1).val / 2048, htl⟩ (1 : Fin 2) * 2048 ≤ (i 1).val
      ∧ (i 1).val < win0_2.index ⟨(i 1).val / 2048, htl⟩ (1 : Fin 2) * 2048 + win0_2.xsize (grid0.coords ⟨(i 1).val / 2048, htl⟩) (1 : Fin 2)
    have e : (⟨(i 1).val / 2048, htl⟩ : Fin cfg0.N).val = (i 1).val / 2048 := rfl
    omega

/-- The result array after the run. -/
theorem final (c : Dev nD) : (dats m 0 c).arrAt 2 cfg0.N = result (V m c main_arg0) (V m c main_arg1) :=
  (dats m 0 c).arrAt_eq_of_cover 2 _ (fun t _ => flushed_eq m c t) cover

/-- The run, read: the result array at the specification's result of the arguments, the arguments unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefValue.lean ====
/-
  The reference's result, index by index, at the exact instance.

  Read one operation at a time, the reference normalises the 1024 head rows, the 1024 relation rows and the 100000 table
  rows, multiplies 16-wide halves of the head and relation rows, contracts each of the four products against a half of
  the table rows, adds and subtracts the four sums, and applies `1 / (1 + exp (-s))`.  That is the logistic function of
  the score in its four-sum spelling; on real inputs the four-sum and the folded spellings agree.
-/
import proofs.«149146_g79044578115790_cont_9to1c4b_482_2_alg».proof.Proof.Gen.ReferenceIdeal.Read
import proofs.«149146_g79044578115790_cont_9to1c4b_482_2_alg».proof.Proof.ScoreSpec

noncomputable section

open scoped BigOperators

namespace Cert.ReferenceIdeal.RefValue

open Cert.ReferenceIdeal Cert.ReferenceIdeal.Read Cert.ScoreSpec
open Idealize.ShloMosaic Idealize.ShloMosaic.ValueIdx

/-- The head-and-relation argument's contents. -/
abbrev HeadArr := (⟨S2048x32, .f32⟩ : BufTy).Contents (Elt Ideal)
/-- The entity table's contents. -/
abbrev EntArr := (⟨S100000x32, .f32⟩ : BufTy).Contents (Elt Ideal)

/-- The word `1.0` denotes the number one. -/
theorem ofBits_one : Ideal.ofBits .f32 0x3F800000#32 = 1 := by
  simp [Ideal.ofBits, Ideal.ieee, -EReal.coe_mul]; norm_num

/-! ## The three families of normalised rows -/

/-- Head row `b`, normalised. -/
theorem head_unit (H : HeadArr) (b : Fin 1024) (k : Fin 32) :
    val_main_v5 (F := Ideal) H (ix2 b k) = unitRow (row H (⟨b.val, by omega⟩ : Fin 2048)) k := by
  have e0 : idx_main_v0 (ix2 b k) = ix2 (⟨b.val, by omega⟩ : Fin 2048) k := funext fun a => Fin.ext (by match a with | ⟨0, _⟩ => rfl | ⟨1, _⟩ => rfl)
  have e1 : ∀ j : Fin 32, idx_main_v0 (idx_main_call0_v1 (idx_main_call0_v2 (idx_main_v4 (ix2 b k))) j)
      = ix2 (⟨b.val, by omega⟩ : Fin 2048) j := fun j => funext fun a => Fin.ext (by match a with | ⟨0, _⟩ => rfl | ⟨1, _⟩ => rfl)
  simp only [val_main_v5_apply, val_main_v4_apply, val_main_v3_apply, val_main_v2_apply, val_main_v1_apply, val_main_cst_apply,
    val_main_call0_v2_apply, val_main_call0_v1_apply, val_main_call0_v0_apply, val_main_call0_cst_apply, val_main_v0_apply, e0, e1]
  simp only [Ideal.hostDivf_def, Ideal.maximumf_def, Ideal.hostUnary_sqrt_def, Ideal.mulf_def, Ideal.ofBits_def, Ideal.ofBits_zero_f32, zero_add]
  rfl

/-- Relation row `b` (row `1024 + b` of the argument), normalised. -/
theorem rel_unit (H : HeadArr) (b : Fin 1024) (k : Fin 32) :
    val_main_v11 (F := Ideal) H (ix2 b k) = unitRow (row H (⟨b.val + 1024, by omega⟩ : Fin 2048)) k := by
  have e0 : idx_main_v6 (ix2 b k) = ix2 (⟨b.val + 1024, by omega⟩ : Fin 2048) k := funext fun a => Fin.ext (by
    match a with
    | ⟨0, _⟩ => show 1024 + b.val = b.val + 1024; omega
    | ⟨1, _⟩ => rfl)
  have e1 : ∀ j : Fin 32, idx_main_v6 (idx_main_call1_v1 (idx_main_call1_v2 (idx_main_v10 (ix2 b k))) j)
      = ix2 (⟨b.val + 1024, by omega⟩ : Fin 2048) j := fun j => funext fun a => Fin.ext (by
    match a with
    | ⟨0, _⟩ => show 1024 + b.val = b.val + 1024; omega
    | ⟨1, _⟩ => rfl)
  simp only [val_main_v11_apply, val_main_v10_apply, val_main_v9_apply, val_main_v8_apply, val_main_v7_apply, val_main_cst_0_apply,
    val_main_call1_v2_apply, val_main_call1_v1_apply, val_main_call1_v0_apply, val_main_call1_cst_apply, val_main_v6_apply, e0, e1]
  simp only [Ideal.hostDivf_def, Ideal.maximumf_def, Ideal.hostUnary_sqrt_def, Ideal.mulf_def, Ideal.ofBits_def, Ideal.ofBits_zero_f32, zero_add]
  rfl

/-- Table row `n`, normalised. -/
theorem ent_unit (E : EntArr) (n : Fin 100000) (k : Fin 32) :
    val_main_v16 (F := Ideal) E (ix2 n k) = unitRow (row E n) k := by
  have e1 : ∀ j : Fin 32, idx_main_call2_v1 (idx_main_call2_v2 (idx_main_v15 (ix2 n k))) j = ix2 n j := fun j => funext fun a => Fin.ext (by match a with | ⟨0, _⟩ => rfl | ⟨1, _⟩ => rfl)
  simp only [val_main_v16_apply, val_main_v15_apply, val_main_v14_apply, val_main_v13_apply, val_main_v12_apply, val_main_cst_1_apply,
    val_main_call2_v2_apply, val_main_call2_v1_apply, val_main_call2_v0_apply, val_main_call2_cst_apply, e1]
  simp only [Ideal.hostDivf_def, Ideal.maximumf_def, Ideal.hostUnary_sqrt_def, Ideal.mulf_def, Ideal.ofBits_def, Ideal.ofBits_zero_f32, zero_add]
  rfl

/-! ## The result at an index -/

/-- Entry `(b, n)` of the reference's result: the logistic of the four-sum score of the three normalised rows. -/
theorem ref_apply (H : HeadArr) (E : EntArr) (b : Fin 1024) (n : Fin 100000) :
    val_main_v43 (F := Ideal) H E (ix2 b n)
      = Ideal.logistic (scoreFour (unitRow (row H (⟨b.val, by omega⟩ : Fin 2048))) (unitRow (row H (⟨b.val + 1024, by omega⟩ : Fin 2048)))
          (unitRow (row E n))) := by
  have a1 : ∀ x : Fin 16, idx_main_v17 (lidx_main_v25 (ix2 b n) x) = ix2 b (lo x) := fun x => funext fun a => Fin.ext (by match a with | ⟨0, _⟩ => rfl | ⟨1, _⟩ => rfl)
  have a2 : ∀ x : Fin 16, idx_main_v19 (lidx_main_v25 (ix2 b n) x) = ix2 b (lo x) := fun x => funext fun a => Fin.ext (by match a with | ⟨0, _⟩ => rfl | ⟨1, _⟩ => rfl)
  have a3 : ∀ x : Fin 16, idx_main_v21 (idx_main_v24 (ridx_main_v25 (ix2 b n) x)) = ix2 n (lo x) := fun x => funext fun a => Fin.ext (by match a with | ⟨0, _⟩ => rfl | ⟨1, _⟩ => rfl)
  have b1 : ∀ x : Fin 16, idx_main_v17 (lidx_main_v28 (ix2 b n) x) = ix2 b (lo x) := fun x => funext fun a => Fin.ext (by match a with | ⟨0, _⟩ => rfl | ⟨1, _⟩ => rfl)
  have b2 : ∀ x : Fin 16, idx_main_v20 (lidx_main_v28 (ix2 b n) x) = ix2 b (hi x) := fun x => funext fun a => Fin.ext (by match a with | ⟨0, _⟩ => rfl | ⟨1, _⟩ => rfl)
  have b3 : ∀ x : Fin 16, idx_main_v22 (idx_main_v27 (ridx_main_v28 (ix2 b n) x)) = ix2 n (hi x) := fun x => funext fun a => Fin.ext (by match a with | ⟨0, _⟩ => rfl | ⟨1, _⟩ => rfl)
  have c1 : ∀ x : Fin 16, idx_main_v18 (lidx_main_v32 (ix2 b n) x) = ix2 b (hi x) := fun x => funext fun a => Fin.ext (by match a with | ⟨0, _⟩ => rfl | ⟨1, _⟩ => rfl)
  have c2 : ∀ x : Fin 16, idx_main_v19 (lidx_main_v32 (ix2 b n) x) = ix2 b (lo x) := fun x => funext fun a => Fin.ext (by match a with | ⟨0, _⟩ => rfl | ⟨1, _⟩ => rfl)
  have c3 : ∀ x : Fin 16, idx_main_v22 (idx_main_v31 (ridx_main_v32 (ix2 b n) x)) = ix2 n (hi x) := fun x => funext fun a => Fin.ext (by match a with | ⟨0, _⟩ => rfl | ⟨1, _⟩ => rfl)
  have d1 : ∀ x : Fin 16, idx_main_v18 (lidx_main_v36 (ix2 b n) x) = ix2 b (hi x) := fun x => funext fun a => Fin.ext (by match a with | ⟨0, _⟩ => rfl | ⟨1, _⟩ => rfl)
  have d2 : ∀ x : Fin 16, idx_main_v20 (lidx_main_v36 (ix2 b n) x) = ix2 b (hi x) := fun x => funext fun a => Fin.ext (by match a with | ⟨0, _⟩ => rfl | ⟨1, _⟩ => rfl)
  have d3 : ∀ x : Fin 16, idx_main_v21 (idx_main_v35 (ridx_main_v36 (ix2 b n) x)) = ix2 n (lo x) := fun x => funext fun a => Fin.ext (by match a with | ⟨0, _⟩ => rfl | ⟨1, _⟩ => rfl)
  simp only [val_main_v43_apply, val_main_v42_apply, val_main_v41_apply, val_main_v40_apply, val_main_v39_apply, val_main_v38_apply, val_main_v37_apply,
    val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_cst_2_apply, val_main_cst_3_apply,
    a1, a2, a3, b1, b2, b3, c1, c2, c3, d1, d2, d3, head_unit, rel_unit, ent_unit]
  simp only [Ideal.hostDivf_def, Ideal.addf_def, Ideal.subf_def, Ideal.mulf_def, Ideal.hostUnary_exp_def, Ideal.hostNegf_def, Ideal.negf_def,
    Ideal.ofBits_def, ofBits_one]
  rfl

/-- On real inputs the reference's result is the one whole-array function of the specification. -/
theorem ref_eq_result (H : HeadArr) (E : EntArr) (hH : ∀ i, IsReal (H i)) (hE : ∀ i, IsReal (E i)) :
    val_main_v43 (F := Ideal) H E = result H E := by
  funext i
  obtain ⟨b, n, rfl⟩ : ∃ (b : Fin 1024) (n : Fin 100000), i = ix2 b n := ⟨i 0, i 1, eq_ix2 i⟩
  rw [ref_apply]
  show _ = scoreAt H E b n
  unfold scoreAt
  exact congrArg Ideal.logistic (scoreFolded_eq_scoreFour (unitRow (row H _)) (unitRow (row H _)) (unitRow (row E n))
    (unitRow_real _ fun k => hH _) (unitRow_real _ fun k => hH _) (unitRow_real _ fun k => hE _)).symm

end Cert.ReferenceIdeal.RefValue

end
-- ==== Proof.Finite.lean ====
/-
  Finiteness, from the precondition.

  The precondition says, of each argument array, that every entry's absolute value is below plus infinity.  On the
  extended reals `|x| = max x (-x)`, which is plus infinity at both infinities, so every entry is a real number.
-/
import proofs.«149146_g79044578115790_cont_9to1c4b_482_2_alg».proof.Pre_finite_inputs
import proofs.«149146_g79044578115790_cont_9to1c4b_482_2_alg».proof.Proof.Gen.Pre_finite_inputs
import proofs.«149146_g79044578115790_cont_9to1c4b_482_2_alg».proof.Proof.ScoreSpec
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Hand

open Cert.Pre_finite_inputs Cert.Pre_finite_inputs.Facts Cert.ScoreSpec
open Idealize.ShloMosaic Idealize.ShloMosaic.ValueIdx

/-- The rank-zero shape has one index. -/
instance : Subsingleton S_.Idx := ⟨fun a b => funext fun d => d.elim0⟩

/-- The word the precondition compares against denotes plus infinity. -/
theorem ofBits_inf : Ideal.ofBits .f32 0x7F800000#32 = ⊤ := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- Under the precondition every entry of both argument arrays is a real number. -/
theorem finite_of_pre [Cert.Pre_finite_inputs.Facts] (x0 : FVec Ideal S2048x32 .f32) (x1 : FVec Ideal S100000x32 .f32)
    (h : fn (F := Ideal) x0 x1 = fun _ => 1#1) : (∀ i, IsReal (x0 i)) ∧ (∀ i, IsReal (x1 i)) := by
  have h0 := congrFun h ix0
  dsimp only [fn] at h0
  have h1 : IntOp.andi
      (Host.reduce IntOp.andi (cmpf .olt (Host.absf x0) (broadcastInDim S2048x32 ![] bcast_S_S2048x32 (constant (F := Ideal) S_ .f32 0x7F800000#32))) (constantI S_ 1 1#1) reducesTo_S2048x32_S_d0_1 h_S_ ix0)
      (Host.reduce IntOp.andi (cmpf .olt (Host.absf x1) (broadcastInDim S100000x32 ![] bcast_S_S100000x32 (constant (F := Ideal) S_ .f32 0x7F800000#32))) (constantI S_ 1 1#1) reducesTo_S100000x32_S_d0_1 h_S_ ix0) = 1#1 := h0
  rw [IntOp.andi_eq_one] at h1
  obtain ⟨ha, hb⟩ := h1
  refine ⟨fun i => ?_, fun i => ?_⟩
  · exact real_of_abs_lt (x0 i) (Host.reduce_andi_all _ _ reducesTo_S2048x32_S_d0_1 h_S_ ix0 ha i)
  · exact real_of_abs_lt (x1 i) (Host.reduce_andi_all _ _ reducesTo_S100000x32_S_d0_1 h_S_ ix0 hb i)

end Cert.Pre_finite_inputs.Hand

end
-- ==== Proof.lean ====
/-
  The claim: the kernel's frame at the word level, the idealized kernel's and the idealized reference's frames, the
  (empty) list of idealization rewrites, and the equality of the two idealized programs' results.

  Both programs compute, for head row `b`, relation row `1024 + b` and table row `n`, each divided by its Euclidean norm
  clamped below by one fixed positive number, the logistic function of the real part of `sum_d h_d r_d conj(t_d)` over 16
  complex coordinates.  The kernel multiplies `h` and `r` first and contracts the 32-vector of the product's real and
  imaginary parts against `t` in one matrix product, tile by tile of 2048 table rows; the reference contracts the four
  real products separately and adds.  On real numbers the two agree by distributivity, and under the precondition all
  normalised rows are real.  The kernel's last tile overhangs the table; the columns of the result it writes back are
  computed from the rows that lie inside the table.
-/
import proofs.«149146_g79044578115790_cont_9to1c4b_482_2_alg».proof.Defs
import proofs.«149146_g79044578115790_cont_9to1c4b_482_2_alg».proof.Proof.Gen.Kernel
import proofs.«149146_g79044578115790_cont_9to1c4b_482_2_alg».proof.Proof.Gen.KernelIdeal
import proofs.«149146_g79044578115790_cont_9to1c4b_482_2_alg».proof.Proof.Gen.ReferenceIdeal
import proofs.«149146_g79044578115790_cont_9to1c4b_482_2_alg».proof.Proof.Gen.ReferenceIdeal.Run
import proofs.«149146_g79044578115790_cont_9to1c4b_482_2_alg».proof.Proof.Gen.ReferenceIdeal.Read
import proofs.«149146_g79044578115790_cont_9to1c4b_482_2_alg».proof.Proof.Gen.Pre_finite_inputs
import proofs.«149146_g79044578115790_cont_9to1c4b_482_2_alg».proof.Proof.KernelFrame
import proofs.«149146_g79044578115790_cont_9to1c4b_482_2_alg».proof.Proof.KernelIdealRun
import proofs.«149146_g79044578115790_cont_9to1c4b_482_2_alg».proof.Proof.RefValue
import proofs.«149146_g79044578115790_cont_9to1c4b_482_2_alg».proof.Proof.Finite
import Idealize.ShloMosaic.Adequacy
import Idealize.ShloMosaic.Init

noncomputable section

namespace Cert.Proof

open Idealize.ShloMosaic Idealize.SL.Sem

/-- The word-level kernel terminates, faults nowhere and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the specification's result of the
    arguments: the kernel by its run, the reference because on real inputs its composed term is that function. -/
theorem algebraic : Cert.algebraic_KernelIdeal_ReferenceIdeal := by
  intro m ρ m' ρ' hpre hagree
  refine ⟨fun c => Cert.ScoreSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun r h c => ⟨?_, (h c).2⟩)
    (Cert.ReferenceIdeal.Value.run (F := Ideal) m' ρ')
  obtain ⟨hH, hE⟩ := Cert.Pre_finite_inputs.Hand.finite_of_pre _ _ (hpre c)
  rw [(h c).1, Cert.ReferenceIdeal.Read.val_main_v43_eq, (hagree c).1, (hagree c).2]
  exact Cert.ReferenceIdeal.RefValue.ref_eq_result _ _ hH hE

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
